-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x20000000 : Shape := ⟨2, ![2, 20000000]⟩
abbrev S20000000 : Shape := ⟨1, ![20000000]⟩
abbrev S_ : Shape := ⟨0, ![]⟩

class Facts : Prop where
  bcast_S_S20000000 : S_.BroadcastsInDim S20000000 (![] : Fin 0 → Fin S20000000.rank)
  reducesTo_S20000000_S_d0 : S20000000.ReducesTo [0] S_
  h_S_ : 0 < S_.numel

variable [Facts]

def fn {F : FTy → Type} [FloatOps F] (main_arg0 : IVec S2x20000000 32) (main_arg1 : FVec F S20000000 .f32) (main_arg2 : IVec S20000000 1) : IVec S_ 1 :=
  let main_v0 : FVec F S20000000 .f32 := Host.absf main_arg1
  let main_cst : FVec F S_ .f32 := constant S_ .f32 0x7F800000#32
  let main_v1 : FVec F S20000000 .f32 := broadcastInDim S20000000 ![] bcast_S_S20000000 main_cst
  let main_v2 : IVec S20000000 1 := cmpf .olt main_v0 main_v1
  let main_c : IVec S_ 1 := constantI S_ 1 1#1
  let main_v3 : IVec S_ 1 := (fun x v => Host.reduce IntOp.andi x v reducesTo_S20000000_S_d0 h_S_) main_v2 main_c
  main_v3
-- ==== Kernel.lean ====
abbrev S2x20000000 : Shape := ⟨2, ![2, 20000000]⟩
abbrev S20000000 : Shape := ⟨1, ![20000000]⟩
abbrev S156250x128 : Shape := ⟨2, ![156250, 128]⟩
abbrev S8192x128 : Shape := ⟨2, ![8192, 128]⟩

abbrev nBuf : Space → Nat
  | .hbm => 8
  | .vmem => 6
  | .smem => 0
  | _ => 0

abbrev bufTy : (tb : Table) → Fin (tcTables nBuf tb) → BufTy
  | .hbm, ⟨0, _⟩ => ⟨S2x20000000, .i32⟩
  | .hbm, ⟨1, _⟩ => ⟨S20000000, .f32⟩
  | .hbm, ⟨2, _⟩ => ⟨S20000000, .i1⟩
  | .hbm, ⟨3, _⟩ => ⟨S156250x128, .f32⟩
  | .hbm, ⟨4, _⟩ => ⟨S156250x128, .i1⟩
  | .hbm, ⟨5, _⟩ => ⟨S156250x128, .i32⟩
  | .hbm, ⟨6, _⟩ => ⟨S156250x128, .f32⟩
  | .hbm, ⟨7, _⟩ => ⟨S20000000, .f32⟩
  | .local _ .vmem, ⟨0, _⟩ => ⟨S8192x128, .f32⟩
  | .local _ .vmem, ⟨1, _⟩ => ⟨S8192x128, .f32⟩
  | .local _ .vmem, ⟨2, _⟩ => ⟨S8192x128, .i32⟩
  | .local _ .vmem, ⟨3, _⟩ => ⟨S8192x128, .i32⟩
  | .local _ .vmem, ⟨4, _⟩ => ⟨S8192x128, .f32⟩
  | .local _ .vmem, ⟨5, _⟩ => ⟨S8192x128, .f32⟩
  | _, _ => ⟨S2x20000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S20000000_S156250x128 : S20000000.ShapeCasts S156250x128
  natLt_1_32 : 1 < 32
  shapeCasts_S156250x128_S20000000 : S156250x128.ShapeCasts S20000000
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S8192x128.size a < S156250x128.size a
  hwx0_0 : ∀ i : grid0.Coords, EltTy.bits .f32 = 32 ∨ (Rect.unit (s := S156250x128) (fun a => cc0_transform_0 i a * S8192x128.size a) (fun a => (Pipeline.Clip.of (cc0_transform_0 i a) (S8192x128.size a) (S156250x128.size a)).extent (S8192x128.size a)) fun a => Pipeline.Clip.inb (Pipeline.Clip.ok_of (hstart0_0 i a))).WholeWords (EltTy.packing .f32)
  hwxs0_0 : ∀ i : grid0.Coords, EltTy.bits .f32 = 32 ∨ (Rect.unit (s := S8192x128) (fun _ => 0) (fun a => (Pipeline.Clip.of (cc0_transform_0 i a) (S8192x128.size a) (S156250x128.size a)).extent (S8192x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S8192x128.size a < S156250x128.size a
  hwx0_1 : ∀ i : grid0.Coords, EltTy.bits .i32 = 32 ∨ (Rect.unit (s := S156250x128) (fun a => cc0_transform_1 i a * S8192x128.size a) (fun a => (Pipeline.Clip.of (cc0_transform_1 i a) (S8192x128.size a) (S156250x128.size a)).extent (S8192x128.size a)) fun a => Pipeline.Clip.inb (Pipeline.Clip.ok_of (hstart0_1 i a))).WholeWords (EltTy.packing .i32)
  hwxs0_1 : ∀ i : grid0.Coords, EltTy.bits .i32 = 32 ∨ (Rect.unit (s := S8192x128) (fun _ => 0) (fun a => (Pipeline.Clip.of (cc0_transform_1 i a) (S8192x128.size a) (S156250x128.size a)).extent (S8192x128.size a)) fun a => (Nat.zero_add _).trans_le (Pipeline.Clip.extent_le (Pipeline.Clip.ok_of (hstart0_1 i a)))).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S8192x128.size a < S156250x128.size a
  hwx0_2 : ∀ i : grid0.Coords, EltTy.bits .f32 = 32 ∨ (Rect.unit (s := S156250x128) (fun a => cc0_transform_2 i a * S8192x128.size a) (fun a => (Pipeline.Clip.of (cc0_transform_2 i a) (S8192x128.size a) (S156250x128.size a)).extent (S8192x128.size a)) fun a => Pipeline.Clip.inb (Pipeline.Clip.ok_of (hstart0_2 i a))).WholeWords (EltTy.packing .f32)
  hwxs0_2 : ∀ i : grid0.Coords, EltTy.bits .f32 = 32 ∨ (Rect.unit (s := S8192x128) (fun _ => 0) (fun a => (Pipeline.Clip.of (cc0_transform_2 i a) (S8192x128.size a) (S156250x128.size a)).extent (S8192x128.size a)) fun a => (Nat.zero_add _).trans_le (Pipeline.Clip.extent_le (Pipeline.Clip.ok_of (hstart0_2 i a)))).WholeWords (EltTy.packing .f32)

variable [Facts₀]

abbrev win0_0 : Pipeline.Window sig grid0 :=
  Pipeline.Window.ofSpecClip (Memref.whole main_call0_v0) S8192x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_call0_v2) S8192x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_call0_v3) S8192x128.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where
  halias0_2 : Pipeline.Aliased win0 0 2

variable [Facts]
-- ==== ReferenceIdeal.lean ====
abbrev S2x20000000 : Shape := ⟨2, ![2, 20000000]⟩
abbrev S20000000 : Shape := ⟨1, ![20000000]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2x20000000, .i32⟩
  | .hbm, ⟨1, _⟩ => ⟨S20000000, .f32⟩
  | .hbm, ⟨2, _⟩ => ⟨S20000000, .i1⟩
  | .hbm, ⟨3, _⟩ => ⟨S_, .f32⟩
  | .hbm, ⟨4, _⟩ => ⟨S20000000, .f32⟩
  | .hbm, ⟨5, _⟩ => ⟨S20000000, .f32⟩
  | .hbm, ⟨6, _⟩ => ⟨S_, .f32⟩
  | .hbm, ⟨7, _⟩ => ⟨S20000000, .f32⟩
  | .hbm, ⟨8, _⟩ => ⟨S20000000, .f32⟩
  | _, _ => ⟨S2x20000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_call0_v0 : Ref sig .tc := ⟨.hbm, 7, rfl⟩
abbrev main_v2 : Ref sig .tc := ⟨.hbm, 8, rfl⟩

abbrev nD : Nat := 1
abbrev τ : Topo := Topo.v7x

variable {F : FTy → Type} [FloatOps F]

class Facts₀ : Prop where
  bcast_S_S20000000 : S_.BroadcastsInDim S20000000 (![] : Fin 0 → Fin S20000000.rank)

variable [Facts₀]

class Facts : Prop extends Facts₀ where

variable [Facts]
-- ==== Proof.WordBody.lean ====
/-
  One grid point of the masked-scaling kernel, and the run of the whole launch.

  The arrays are 156250 rows of 128 lanes, staged in blocks of 8192 rows: nineteen whole blocks and a last one of
  which only 602 rows lie inside the array. At a point the body loads the block of values and the block of mask words,
  and stores, lane by lane, the value times the scale where the mask word is not zero and zero elsewhere
  (`keepScaled`). The store covers the whole staging block, so what the block holds afterwards is that function of the
  two loaded blocks at every row, also at the rows past the array's end, where the loaded words are whatever the
  staging buffers happened to hold. Only the rows inside the array are written back, and on those the stored block is
  the same lane-wise function of the ARRAYS' rows: block `t` of the whole-array function `rows`. That is all the
  launch needs to know of a point, so the proof data name each staging block on the rows inside the array and fill the
  rest with a fixed word that nothing reads.
-/
import proofs.«164491_j52381421142407_2_alg».proof.Proof.Gen.Kernel.Skeleton
import proofs.«164491_j52381421142407_2_alg».proof.Proof.Gen.Kernel.Frame
import Idealize.ShloMosaic.Lib.Pipeline.Value
import Idealize.ShloMosaic.Lib.Pipeline.FrameBody
import Idealize.ShloMosaic.Lib.Pipeline.FrameSuffix
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## One lane -/

/-- One lane of the result: the value times the scale where the mask word is not zero, the zero word elsewhere. -/
def keepScaled (a : F .f32) (b : BitVec 32) : F .f32 :=
  Scalar.select (IntOp.cmpi .ne b 0#32) (FloatOps.mulf a (Scalar.ofBits .f32 0x3F8E38E4#32)) (Scalar.ofBits .f32 0x00000000#32)

/-- The stored vector is `keepScaled` lane by lane of the two loaded vectors: the two shape casts are to the vectors'
    own shape, and every other operation acts on each lane by itself. -/
theorem pay_apply (v0 : Vec F S8192x128 .f32) (v2 : Vec F S8192x128 .i32) (j : S8192x128.Idx) :
    k0_pay1 v0 v2 j = keepScaled (v0 j) (v2 j) := by
  unfold k0_pay1
  simp only [shapeCast_self]
  rfl

/-! ## The body at a point -/

/-- The whole staging block, as the rectangle the body's three loads and its store go through. -/
abbrev whole : Rect S8192x128 := Rect.unit (s := S8192x128) ![0, 0] S8192x128.size inb_S8192x128_S8192x128_0_0

theorem whole_zero : (![0, 0] : Fin 2 → Nat) = fun _ => 0 := funext fun a => by fin_cases a <;> rfl

/-- What the result's staging block holds after the body, from the contents of the other two. -/
def stored (x0 : Vec F S8192x128 .f32) (x1 : Vec F S8192x128 .i32) : Vec F S8192x128 .f32 :=
  View.canon [⟨whole, k0_pay1 (View.ld x0 whole) (View.ld x1 whole)⟩]

/-- One store through the whole block leaves its payload, and a load through it reads the contents. -/
theorem stored_eq (x0 : Vec F S8192x128 .f32) (x1 : Vec F S8192x128 .i32) : stored x0 x1 = k0_pay1 x0 x1 := by
  unfold stored
  rw [View.canon_unit_zero whole_zero]
  simp only [View.ld_unit_zero (S := S8192x128) whole_zero]

theorem stored_apply (x0 : Vec F S8192x128 .f32) (x1 : Vec F S8192x128 .i32) (j : S8192x128.Idx) :
    stored x0 x1 j = keepScaled (x0 j) (x1 j) := by
  rw [stored_eq, pay_apply]

/-- The one store covers the block. -/
theorem covered (p0 : Vec F S8192x128 .f32) (y : S8192x128.Idx) :
    ∃ pc ∈ ([⟨whole, p0⟩] : List (View.Piece (Elt F) S8192x128 .f32)), y ∈ pc.1.set :=
  ⟨_, List.mem_singleton_self _, View.mem_set_unit_zero whole_zero inb_S8192x128_S8192x128_0_0 y⟩

set_option maxHeartbeats 1000000 in
/-- The body on whole staging memrefs, the values' at `x0`, the mask words' at `x1`, the result's at anything: it ends
    with the first two as they were and the result's at `stored x0 x1`. -/
theorem sound_kernel (c : Dev nD) (E : Set ℕ) (i : grid0.Coords)
    (arg1 : Memref sig .tc .vmem S8192x128 .f32) (harg1 : arg1.IsWhole)
    (arg2 : Memref sig .tc .vmem S8192x128 .i32) (harg2 : arg2.IsWhole)
    (arg3 : Memref sig .tc .vmem S8192x128 .f32) (harg3 : arg3.IsWhole)
    (x0 : Vec F S8192x128 .f32) (x1 : Vec F S8192x128 .i32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (stored x0 x1)) -∗ K ⟨⟩))
      ⊢ wp frame (wpE (defs₀ (F := F)) Variants.none c none) E (cc0__dropout_kernel i arg1 harg1 arg2 harg2 arg3 harg3) K := by
  simp only [cc0__dropout_kernel_eq_skeleton]; unfold cc0__dropout_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covered _)

end Cert.Kernel.Body

end
-- ==== Proof.WordRun.lean ====
/-
  The launch of the masked-scaling kernel over its twenty grid points, and the program's frame.

  The proof data: at point `t` the values' and the mask words' staging blocks hold, on the rows inside the array, block
  `t` of their arrays (just fetched), and the result's holds block `t` of `rows`, the lane-wise `keepScaled` of the
  two arrays; past the array's end (only at the last point) each holds a word nothing reads. Every window is fetched
  or written back at every point, so the body is always handed the two input blocks freshly fetched, filled out past
  the array's end with whatever the buffers held, and whatever it leaves is stated on the rows inside the array only.
-/
import proofs.«164491_j52381421142407_2_alg».proof.Proof.WordBody

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The whole-array function -/

/-- The result array the launch leaves, as one function of the two arrays the region finds: row by row and lane by
    lane, the value times the scale where the mask word is not zero, zero elsewhere. -/
def rows (c : Dev nD) : Buf (Elt F) ((c : Thread nD τ).loc main_call0_v3) :=
  fun i => keepScaled (V m c main_call0_v0 i) (V m c main_call0_v2 i)

/-! ## The proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => win0_1.fill (grid0.coords t) (fun _ => (0#32 : BitVec 32)) (iblk m c 1 t)
    | ⟨2, _⟩ => win0_2.fill (grid0.coords t) (fun _ => Scalar.ofBits .f32 0#32) ((win0_2.blk t).view.read (Elt F) (rows m c))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) :
    (dats m 0 c).after 0 t = win0_0.fill (grid0.coords t) (fun _ => Scalar.ofBits .f32 0#32) (iblk m c 0 t) := by
  dsimp only [dats]
theorem after_1 (c : Dev nD) (t : Fin cfg0.N) :
    (dats m 0 c).after 1 t = win0_1.fill (grid0.coords t) (fun _ => (0#32 : BitVec 32)) (iblk m c 1 t) := by
  dsimp only [dats]
theorem after_2 (c : Dev nD) (t : Fin cfg0.N) :
    (dats m 0 c).after 2 t = win0_2.fill (grid0.coords t) (fun _ => Scalar.ofBits .f32 0#32) ((win0_2.blk t).view.read (Elt F) (rows m c)) := by
  dsimp only [dats]

/-- What the write-back at point `t` writes is block `t` of `rows`. -/
theorem flushed_2 (c : Dev nD) (t : Fin cfg0.N) :
    (dats m 0 c).flushed 2 t = (win0_2.blk t).view.read (Elt F) (rows m c) := by
  show win0_2.cut (grid0.coords t) ((dats m 0 c).after 2 t) = _
  rw [after_2, win0_2.cut_fill]

/-- The two input windows are fetched at every point: the body finds each one's block of its array on the rows inside
    the array, and past them what the buffer held. -/
theorem before_0 (c : Dev nD) (t : Fin cfg0.N) (d) :
    (dats m 0 c).before 0 t d = win0_0.fill (grid0.coords t) d (iblk m c 0 t) := by
  unfold Dat.before; rw [if_pos (fetch0_0 t)]; rfl
theorem before_1 (c : Dev nD) (t : Fin cfg0.N) (d) :
    (dats m 0 c).before 1 t d = win0_1.fill (grid0.coords t) d (iblk m c 1 t) := by
  unfold Dat.before; rw [if_pos (fetch0_1 t)]; rfl

/-! ## The body obligation -/

/-- On the rows inside the array, what the body stores from the two freshly fetched blocks is block `t` of `rows`:
    there the fetched blocks are the arrays' rows, the three windows cut their blocks alike (one index map, one
    array shape), and the stored block is `keepScaled` lane by lane. -/
theorem cut_stored (c : Dev nD) (t : Fin cfg0.N) (d0 : S8192x128.Idx → F .f32) (d1 : S8192x128.Idx → BitVec 32) :
    win0_2.cut (grid0.coords t)
        (stored (win0_0.fill (grid0.coords t) d0 (iblk m c 0 t)) (win0_1.fill (grid0.coords t) d1 (iblk m c 1 t)))
      = (win0_2.blk t).view.read (Elt F) (rows m c) := by
  funext j
  show stored _ _ (win0_2.xinj (grid0.coords t) j) = _
  rw [stored_apply]
  have e0 : win0_0.fill (grid0.coords t) d0 (iblk m c 0 t) (win0_2.xinj (grid0.coords t) j) = iblk m c 0 t j :=
    win0_0.fill_xinj (grid0.coords t) d0 (iblk m c 0 t) j
  have e1 : win0_1.fill (grid0.coords t) d1 (iblk m c 1 t) (win0_2.xinj (grid0.coords t) j) = iblk m c 1 t j :=
    win0_1.fill_xinj (grid0.coords t) d1 (iblk m c 1 t) j
  rw [e0, e1]
  rfl

/-- The library's body obligation at every point, every window stated on the rows its transfers move. -/
theorem body_obligation (c : Dev nD) :
    BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_0 m c t d0, before_1 m c t d1]
  iapply (sound_kernel (F := F) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_0.fill (grid0.coords t) d0 (iblk m c 0 t)) (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0
    rw [after_0, win0_0.cut_fill]; iexact H0
  isplitl [H1]
  · iexists d1
    rw [after_1, win0_1.cut_fill]; iexact H1
  · iexists stored (win0_0.fill (grid0.coords t) d0 (iblk m c 0 t)) (win0_1.fill (grid0.coords t) d1 (iblk m c 1 t))
    rw [after_2, win0_2.cut_fill, ← cut_stored m c t d0 d1, win0_2.fill_cut]; iexact H2

/-! ## The run and the frame -/

set_option backward.isDefEq.respectTransparency.types false in
/-- Every weakly fair execution of @main terminates, with the result's array at what the library computes from the
    proof data and every other buffer as the lines after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to the end, faults nowhere, and leaves its three argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.IdealBody.lean ====
/-
  One grid point of the masked-scaling kernel, and the run of the whole launch.

  The arrays are 156250 rows of 128 lanes, staged in blocks of 8192 rows: nineteen whole blocks and a last one of
  which only 602 rows lie inside the array. At a point the body loads the block of values and the block of mask words,
  and stores, lane by lane, the value times the scale where the mask word is not zero and zero elsewhere
  (`keepScaled`). The store covers the whole staging block, so what the block holds afterwards is that function of the
  two loaded blocks at every row, also at the rows past the array's end, where the loaded words are whatever the
  staging buffers happened to hold. Only the rows inside the array are written back, and on those the stored block is
  the same lane-wise function of the ARRAYS' rows: block `t` of the whole-array function `rows`. That is all the
  launch needs to know of a point, so the proof data name each staging block on the rows inside the array and fill the
  rest with a fixed word that nothing reads.
-/
import proofs.«164491_j52381421142407_2_alg».proof.Proof.Gen.KernelIdeal.Skeleton
import proofs.«164491_j52381421142407_2_alg».proof.Proof.Gen.KernelIdeal.Frame
import Idealize.ShloMosaic.Lib.Pipeline.Value
import Idealize.ShloMosaic.Lib.Pipeline.FrameBody
import Idealize.ShloMosaic.Lib.Pipeline.FrameSuffix
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## One lane -/

/-- One lane of the result: the value times the scale where the mask word is not zero, the zero word elsewhere. -/
def keepScaled (a : F .f32) (b : BitVec 32) : F .f32 :=
  Scalar.select (IntOp.cmpi .ne b 0#32) (FloatOps.mulf a (Scalar.ofBits .f32 0x3F8E38E4#32)) (Scalar.ofBits .f32 0x00000000#32)

/-- The stored vector is `keepScaled` lane by lane of the two loaded vectors: the two shape casts are to the vectors'
    own shape, and every other operation acts on each lane by itself. -/
theorem pay_apply (v0 : Vec F S8192x128 .f32) (v2 : Vec F S8192x128 .i32) (j : S8192x128.Idx) :
    k0_pay1 v0 v2 j = keepScaled (v0 j) (v2 j) := by
  unfold k0_pay1
  simp only [shapeCast_self]
  rfl

/-! ## The body at a point -/

/-- The whole staging block, as the rectangle the body's three loads and its store go through. -/
abbrev whole : Rect S8192x128 := Rect.unit (s := S8192x128) ![0, 0] S8192x128.size inb_S8192x128_S8192x128_0_0

theorem whole_zero : (![0, 0] : Fin 2 → Nat) = fun _ => 0 := funext fun a => by fin_cases a <;> rfl

/-- What the result's staging block holds after the body, from the contents of the other two. -/
def stored (x0 : Vec F S8192x128 .f32) (x1 : Vec F S8192x128 .i32) : Vec F S8192x128 .f32 :=
  View.canon [⟨whole, k0_pay1 (View.ld x0 whole) (View.ld x1 whole)⟩]

/-- One store through the whole block leaves its payload, and a load through it reads the contents. -/
theorem stored_eq (x0 : Vec F S8192x128 .f32) (x1 : Vec F S8192x128 .i32) : stored x0 x1 = k0_pay1 x0 x1 := by
  unfold stored
  rw [View.canon_unit_zero whole_zero]
  simp only [View.ld_unit_zero (S := S8192x128) whole_zero]

theorem stored_apply (x0 : Vec F S8192x128 .f32) (x1 : Vec F S8192x128 .i32) (j : S8192x128.Idx) :
    stored x0 x1 j = keepScaled (x0 j) (x1 j) := by
  rw [stored_eq, pay_apply]

/-- The one store covers the block. -/
theorem covered (p0 : Vec F S8192x128 .f32) (y : S8192x128.Idx) :
    ∃ pc ∈ ([⟨whole, p0⟩] : List (View.Piece (Elt F) S8192x128 .f32)), y ∈ pc.1.set :=
  ⟨_, List.mem_singleton_self _, View.mem_set_unit_zero whole_zero inb_S8192x128_S8192x128_0_0 y⟩

set_option maxHeartbeats 1000000 in
/-- The body on whole staging memrefs, the values' at `x0`, the mask words' at `x1`, the result's at anything: it ends
    with the first two as they were and the result's at `stored x0 x1`. -/
theorem sound_kernel (c : Dev nD) (E : Set ℕ) (i : grid0.Coords)
    (arg1 : Memref sig .tc .vmem S8192x128 .f32) (harg1 : arg1.IsWhole)
    (arg2 : Memref sig .tc .vmem S8192x128 .i32) (harg2 : arg2.IsWhole)
    (arg3 : Memref sig .tc .vmem S8192x128 .f32) (harg3 : arg3.IsWhole)
    (x0 : Vec F S8192x128 .f32) (x1 : Vec F S8192x128 .i32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (stored x0 x1)) -∗ K ⟨⟩))
      ⊢ wp frame (wpE (defs₀ (F := F)) Variants.none c none) E (cc0__dropout_kernel i arg1 harg1 arg2 harg2 arg3 harg3) K := by
  simp only [cc0__dropout_kernel_eq_skeleton]; unfold cc0__dropout_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covered _)

end Cert.KernelIdeal.Body

end
-- ==== Proof.IdealRun.lean ====
/-
  The launch of the masked-scaling kernel over its twenty grid points, and the program's frame.

  The proof data: at point `t` the values' and the mask words' staging blocks hold, on the rows inside the array, block
  `t` of their arrays (just fetched), and the result's holds block `t` of `rows`, the lane-wise `keepScaled` of the
  two arrays; past the array's end (only at the last point) each holds a word nothing reads. Every window is fetched
  or written back at every point, so the body is always handed the two input blocks freshly fetched, filled out past
  the array's end with whatever the buffers held, and whatever it leaves is stated on the rows inside the array only.
-/
import proofs.«164491_j52381421142407_2_alg».proof.Proof.IdealBody

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The whole-array function -/

/-- The result array the launch leaves, as one function of the two arrays the region finds: row by row and lane by
    lane, the value times the scale where the mask word is not zero, zero elsewhere. -/
def rows (c : Dev nD) : Buf (Elt F) ((c : Thread nD τ).loc main_call0_v3) :=
  fun i => keepScaled (V m c main_call0_v0 i) (V m c main_call0_v2 i)

/-! ## The proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => win0_1.fill (grid0.coords t) (fun _ => (0#32 : BitVec 32)) (iblk m c 1 t)
    | ⟨2, _⟩ => win0_2.fill (grid0.coords t) (fun _ => Scalar.ofBits .f32 0#32) ((win0_2.blk t).view.read (Elt F) (rows m c))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) :
    (dats m 0 c).after 0 t = win0_0.fill (grid0.coords t) (fun _ => Scalar.ofBits .f32 0#32) (iblk m c 0 t) := by
  dsimp only [dats]
theorem after_1 (c : Dev nD) (t : Fin cfg0.N) :
    (dats m 0 c).after 1 t = win0_1.fill (grid0.coords t) (fun _ => (0#32 : BitVec 32)) (iblk m c 1 t) := by
  dsimp only [dats]
theorem after_2 (c : Dev nD) (t : Fin cfg0.N) :
    (dats m 0 c).after 2 t = win0_2.fill (grid0.coords t) (fun _ => Scalar.ofBits .f32 0#32) ((win0_2.blk t).view.read (Elt F) (rows m c)) := by
  dsimp only [dats]

/-- What the write-back at point `t` writes is block `t` of `rows`. -/
theorem flushed_2 (c : Dev nD) (t : Fin cfg0.N) :
    (dats m 0 c).flushed 2 t = (win0_2.blk t).view.read (Elt F) (rows m c) := by
  show win0_2.cut (grid0.coords t) ((dats m 0 c).after 2 t) = _
  rw [after_2, win0_2.cut_fill]

/-- The two input windows are fetched at every point: the body finds each one's block of its array on the rows inside
    the array, and past them what the buffer held. -/
theorem before_0 (c : Dev nD) (t : Fin cfg0.N) (d) :
    (dats m 0 c).before 0 t d = win0_0.fill (grid0.coords t) d (iblk m c 0 t) := by
  unfold Dat.before; rw [if_pos (fetch0_0 t)]; rfl
theorem before_1 (c : Dev nD) (t : Fin cfg0.N) (d) :
    (dats m 0 c).before 1 t d = win0_1.fill (grid0.coords t) d (iblk m c 1 t) := by
  unfold Dat.before; rw [if_pos (fetch0_1 t)]; rfl

/-! ## The body obligation -/

/-- On the rows inside the array, what the body stores from the two freshly fetched blocks is block `t` of `rows`:
    there the fetched blocks are the arrays' rows, the three windows cut their blocks alike (one index map, one
    array shape), and the stored block is `keepScaled` lane by lane. -/
theorem cut_stored (c : Dev nD) (t : Fin cfg0.N) (d0 : S8192x128.Idx → F .f32) (d1 : S8192x128.Idx → BitVec 32) :
    win0_2.cut (grid0.coords t)
        (stored (win0_0.fill (grid0.coords t) d0 (iblk m c 0 t)) (win0_1.fill (grid0.coords t) d1 (iblk m c 1 t)))
      = (win0_2.blk t).view.read (Elt F) (rows m c) := by
  funext j
  show stored _ _ (win0_2.xinj (grid0.coords t) j) = _
  rw [stored_apply]
  have e0 : win0_0.fill (grid0.coords t) d0 (iblk m c 0 t) (win0_2.xinj (grid0.coords t) j) = iblk m c 0 t j :=
    win0_0.fill_xinj (grid0.coords t) d0 (iblk m c 0 t) j
  have e1 : win0_1.fill (grid0.coords t) d1 (iblk m c 1 t) (win0_2.xinj (grid0.coords t) j) = iblk m c 1 t j :=
    win0_1.fill_xinj (grid0.coords t) d1 (iblk m c 1 t) j
  rw [e0, e1]
  rfl

/-- The library's body obligation at every point, every window stated on the rows its transfers move. -/
theorem body_obligation (c : Dev nD) :
    BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_0 m c t d0, before_1 m c t d1]
  iapply (sound_kernel (F := F) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_0.fill (grid0.coords t) d0 (iblk m c 0 t)) (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0
    rw [after_0, win0_0.cut_fill]; iexact H0
  isplitl [H1]
  · iexists d1
    rw [after_1, win0_1.cut_fill]; iexact H1
  · iexists stored (win0_0.fill (grid0.coords t) d0 (iblk m c 0 t)) (win0_1.fill (grid0.coords t) d1 (iblk m c 1 t))
    rw [after_2, win0_2.cut_fill, ← cut_stored m c t d0 d1, win0_2.fill_cut]; iexact H2

/-! ## The run and the frame -/

set_option backward.isDefEq.respectTransparency.types false in
/-- Every weakly fair execution of @main terminates, with the result's array at what the library computes from the
    proof data and every other buffer as the lines after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to the end, faults nowhere, and leaves its three argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.IdealValue.lean ====
/-
  What the idealized kernel's result array holds after the run, as one function of its arguments.

  The twenty blocks of 8192 rows cover the 156250 rows of the array: row `r` lies in the block of point `r / 8192`,
  whose part inside the array is rows `8192 t` to `8192 t + 8191` for `t < 19` and rows 155648 to 156249 for the last
  point. Each point writes back block `t` of `rows`, so after the last write-back the array IS `rows`. The lines of
  the program before the region lay the 20000000 values and mask bits out as 156250 rows of 128 lanes (the mask bits
  widened to words), and the line after it lays the rows out flat again: a reshape reads the operand at the index
  with the same row-major position, so going there and back is the identity, and a lane-wise function commutes with
  it. The flat result is therefore `keepFlat` of the two flat arguments: at every index the value times the scale
  where the widened mask bit is not zero, and zero elsewhere.
-/
import proofs.«164491_j52381421142407_2_alg».proof.Proof.IdealRun
import Idealize.ShloMosaic.Lib.Pipeline.Value
import Idealize.ShloMosaic.Lib.StableHlo.Run

set_option maxRecDepth 16384

noncomputable section

namespace Cert.KernelIdeal.Result

open Cert.KernelIdeal Cert.KernelIdeal.Gen Cert.KernelIdeal.Body
open Idealize.ShloMosaic Idealize.ShloMosaic.TcCoe Idealize.ShloMosaic.Tactic
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-! ## The flat function -/

/-- The result as a function of the flat values and the flat mask bits. -/
def keepFlat (x1 : S20000000.Idx → F .f32) (x2 : S20000000.Idx → BitVec 1) : S20000000.Idx → F .f32 :=
  fun k => keepScaled (x1 k) ((x2 k).setWidth 32)

/-! ## The lines before the region -/

/-- The region finds the values laid out as rows, -/
theorem V_values (c : Dev nD) : (V m c main_call0_v0 : S156250x128.Idx → F .f32)
    = shapeCast S156250x128 (m ((c : Thread nD τ).loc main_arg1)) shapeCasts_S20000000_S156250x128 := by
  show StableHlo.after hostOps0 (fun b => m (c, b)) (Proc.devRef .tc main_call0_v0) = _
  after_results
  rfl

/-- and the mask bits laid out as rows and widened to words. -/
theorem V_maskWords (c : Dev nD) : (V m c main_call0_v2 : S156250x128.Idx → BitVec 32)
    = extui 32 (shapeCast S156250x128 (m ((c : Thread nD τ).loc main_arg2)) shapeCasts_S20000000_S156250x128) natLt_1_32 := by
  show StableHlo.after hostOps0 (fun b => m (c, b)) (Proc.devRef .tc main_call0_v2) = _
  after_results
  rfl

/-- So `rows` is the flat function laid out as rows. -/
theorem rows_eq (c : Dev nD) : (rows m c : S156250x128.Idx → F .f32)
    = shapeCast S156250x128 (keepFlat (m ((c : Thread nD τ).loc main_arg1)) (m ((c : Thread nD τ).loc main_arg2))) shapeCasts_S20000000_S156250x128 := by
  funext i
  unfold rows
  rw [V_values, V_maskWords]
  rfl

/-! ## The blocks cover the array -/

/-- The result window's index map and cut sizes, decided once over the twenty points: block `t` starts at row
    `8192 t`, lane 0; it has all 128 lanes and the rows of its 8192 that lie below row 156250. -/
theorem blk_facts : ∀ t : Fin cfg0.N, win0_2.index t (0 : Fin 2) = t.val ∧ win0_2.index t (1 : Fin 2) = 0
    ∧ win0_2.xsize (grid0.coords t) (0 : Fin 2) = min 8192 (156250 - t.val * 8192)
    ∧ win0_2.xsize (grid0.coords t) (1 : Fin 2) = 128 :=
  (by decide +kernel : ∀ t : Fin grid0.N, _)

/-- An index of the array is in point `t`'s block iff each coordinate is in the block's range on its axis. -/
theorem mem_blk (t : Fin cfg0.N) (i : S156250x128.Idx) :
    i ∈ ((cfg0.win 2).blk t).view.set ↔ ∀ a : Fin 2, win0_2.index t a * S8192x128.size a ≤ (i a).val
      ∧ (i a).val < win0_2.index t a * S8192x128.size a + win0_2.xsize (grid0.coords t) a := by
  show i ∈ ((View.whole main_call0_v3).slice (win0_2.rect t)).set ↔ _
  rw [View.set_slice_whole, Rect.mem_set_unit]
  exact Iff.rfl

/-- Every index of the array is in the block of the point its row divided by 8192 names. -/
theorem cover (i : S156250x128.Idx) :
    ∃ t : Fin cfg0.N, (cfg0.win 2).flush t = true ∧ i ∈ ((cfg0.win 2).blk t).view.set := by
  have hi0 : (i 0).val < 156250 := (i 0).isLt
  have hi1 : (i 1).val < 128 := (i 1).isLt
  have hN : cfg0.N = 20 := N_0
  let t : Fin cfg0.N := ⟨(i 0).val / 8192, by rw [hN]; omega⟩
  have ht : t.val = (i 0).val / 8192 := rfl
  refine ⟨t, flush0_2 t, ?_⟩
  rw [mem_blk]
  obtain ⟨e0, e1, e2, e3⟩ := blk_facts t
  intro a
  match a with
  | ⟨0, _⟩ =>
    show win0_2.index t (0 : Fin 2) * 8192 ≤ (i 0).val ∧ (i 0).val < win0_2.index t (0 : Fin 2) * 8192 + win0_2.xsize (grid0.coords t) (0 : Fin 2)
    rw [e0, e2]; omega
  | ⟨1, _⟩ =>
    show win0_2.index t (1 : Fin 2) * 128 ≤ (i 1).val ∧ (i 1).val < win0_2.index t (1 : Fin 2) * 128 + win0_2.xsize (grid0.coords t) (1 : Fin 2)
    rw [e1, e3]; omega

/-- After the last write-back the result's array is `rows`. -/
theorem final (c : Dev nD) : (dats m 0 c).arrAt 2 cfg0.N = rows m c :=
  (dats m 0 c).arrAt_eq_of_cover 2 (rows m c) (fun t _ => flushed_2 m c t) cover

/-! ## The line after the region -/

/-- The flat result: the rows laid out flat again. -/
theorem result_eq (c : Dev nD) :
    Pipeline.afterTail₀ cfgs (dats m) 0 (V0 m) [hostOps1] c main_v0
      = keepFlat (m ((c : Thread nD τ).loc main_arg1)) (m ((c : Thread nD τ).loc main_arg2)) := by
  unfold Pipeline.afterTail₀
  show StableHlo.after hostOps1 _ (Proc.devRef .tc main_v0) = _
  after_results
  have hw : Pipeline.withArrays (cfgs 0).spec c (V0 m c) (fun w => (dats m 0 c).arrAt w (cfgs 0).N) (Proc.devRef .tc main_call0_v3)
      = rows m c :=
    (Pipeline.withArrays_arr spec0 launch0.win.arr_inj c _ _ 2).trans (final m c)
  have key : shapeCast S20000000 (rows m c : S156250x128.Idx → F .f32) shapeCasts_S156250x128_S20000000
      = keepFlat (m ((c : Thread nD τ).loc main_arg1)) (m ((c : Thread nD τ).loc main_arg2)) := by
    rw [rows_eq]; exact shapeCast_shapeCast _ _ _
  rw [← key, ← hw]
  rfl

/-! ## The run, with the result named -/

/-- Every weakly fair execution of the idealized kernel terminates with the result at `keepFlat` of the values and
    the mask bits, and the three arguments as they were. -/
theorem run : θ_run defs (onTc (τ := τ) (main (F := F))) ⟨m, fun _ => 0, ρ⟩ fun r => ∀ c : Dev nD,
      r.2.mem ((c.tc : Thread nD τ).loc main_v0)
        = keepFlat (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v0 (Pipeline.mem_restRefs_of main_v0 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.Result

end
-- ==== Proof.Bridge.lean ====
/-
  The reference computes the same flat function.

  The reference multiplies every value by the scale and keeps the product where the mask bit is set, zero elsewhere.
  The kernel widens the mask bit to a word and asks whether the word is not zero, which gives the bit back; the scale
  and the zero are the same two words on both sides. So index by index the two results are one expression of the
  value and the mask bit, over any float values at all: no property of the extended reals is used.
-/
import proofs.«164491_j52381421142407_2_alg».proof.Proof.IdealValue
import proofs.«164491_j52381421142407_2_alg».proof.Proof.Gen.ReferenceIdeal.Run
import proofs.«164491_j52381421142407_2_alg».proof.Proof.Gen.ReferenceIdeal.Read

noncomputable section

namespace Cert.Bridge

open Idealize.ShloMosaic
open Cert.KernelIdeal.Body Cert.KernelIdeal.Result

variable {F : FTy → Type} [FloatOps F]

/-- A mask bit widened to a word is not the zero word exactly when the bit is set. -/
theorem bit_of_word : ∀ b : BitVec 1, IntOp.cmpi .ne (b.setWidth 32) 0#32 = b := by decide

/-- The reference's result, read one operation at a time, is `keepFlat` of the values and the mask bits. -/
theorem reference_eq (x1 : Cert.KernelIdeal.S20000000.Idx → F .f32) (x2 : Cert.KernelIdeal.S20000000.Idx → BitVec 1) :
    Cert.ReferenceIdeal.Read.val_main_v2 (F := F) x1 x2 = keepFlat x1 x2 := by
  funext i
  rw [Cert.ReferenceIdeal.Read.val_main_v2_apply, Cert.ReferenceIdeal.Read.val_main_v1_apply,
    Cert.ReferenceIdeal.Read.val_main_v0_apply, Cert.ReferenceIdeal.Read.val_main_cst_apply,
    Cert.ReferenceIdeal.Read.val_main_call0_v0_apply, Cert.ReferenceIdeal.Read.val_main_cst_0_apply]
  unfold keepFlat keepScaled
  rw [bit_of_word]

end Cert.Bridge

end
-- ==== Proof.lean ====
/-
  Masked scaling of twenty million values: the kernel against its reference.

  Both programs compute, at every index, the value times one fixed scale where the mask bit is set and zero
  elsewhere. The kernel lays the flat arrays out as 156250 rows of 128 lanes and works through them in twenty blocks
  of 8192 rows, the last of which overhangs the array and is cut to its 602 rows inside; the reference works on the
  flat arrays directly. Proof/IdealBody.lean and Proof/IdealRun.lean run the idealized kernel (one grid point, then
  the launch), Proof/WordBody.lean and Proof/WordRun.lean do the same for the kernel on machine words,
  Proof/IdealValue.lean reads the idealized kernel's result as one function of its arguments, and Proof/Bridge.lean
  shows the reference's result is that function. The idealized kernel is the kernel's own text read over the
  extended reals (no operation was rewritten), so there is nothing to preserve beyond that; and since the two results
  are the same expression of the inputs at every index, the equality needs no finiteness of the inputs.
-/
import proofs.«164491_j52381421142407_2_alg».proof.Defs
import proofs.«164491_j52381421142407_2_alg».proof.Proof.WordRun
import proofs.«164491_j52381421142407_2_alg».proof.Proof.IdealRun
import proofs.«164491_j52381421142407_2_alg».proof.Proof.IdealValue
import proofs.«164491_j52381421142407_2_alg».proof.Proof.Bridge
import proofs.«164491_j52381421142407_2_alg».proof.Proof.Gen.Kernel
import proofs.«164491_j52381421142407_2_alg».proof.Proof.Gen.KernelIdeal
import proofs.«164491_j52381421142407_2_alg».proof.Proof.Gen.ReferenceIdeal
import proofs.«164491_j52381421142407_2_alg».proof.Proof.Gen.ReferenceIdeal.Run
import proofs.«164491_j52381421142407_2_alg».proof.Proof.Gen.ReferenceIdeal.Read
import proofs.«164491_j52381421142407_2_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The kernel on machine words runs to the end and leaves its arguments as they were. -/
theorem frame_k : Cert.frame_Kernel := fun m ρ _ => Cert.Kernel.Body.frame m ρ

/-- So does the idealized kernel. -/
theorem frame_ki : Cert.frame_KernelIdeal := fun m ρ _ => Cert.KernelIdeal.Body.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading. -/
theorem preserves : Cert.preserves_Kernel_KernelIdeal := trivial

/-- From memories agreeing on the arguments both programs end with the result at the same function of the values
    and the mask bits. -/
theorem algebraic : Cert.algebraic_KernelIdeal_ReferenceIdeal := by
  intro m ρ m' ρ' _ hagree
  refine ⟨_, Cert.KernelIdeal.Result.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.Bridge.reference_eq, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
